-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x8192x1 : Shape := ⟨3, ![4096, 8192, 1]⟩
abbrev S1x1 : Shape := ⟨2, ![1, 1]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x8192x1 : S_.BroadcastsInDim S4096x8192x1 (![] : Fin 0 → Fin S4096x8192x1.rank)
  reducesTo_S4096x8192x1_S_d0_1_2 : S4096x8192x1.ReducesTo [0, 1, 2] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_v13 : IVec S_ 1) (main_v16 : IVec S1x1 1) : IVec S_ 1 :=
  let main_c_5 : IVec S_ 1 := constantI S_ 1 1#1
  let main_v17 : IVec S_ 1 := (fun x v => Host.reduce IntOp.andi x v reducesTo_S1x1_S_d0_1 h_S_) main_v16 main_c_5
  let main_v18 : IVec S_ 1 := andi main_v13 main_v17
  main_v18

def fn {F : FTy → Type} [FloatOps F] (main_arg0 : FVec F S4096 .f32) (main_arg1 : FVec F S4096x8192x1 .f32) (main_arg2 : FVec F S1x1 .f32) (main_arg3 : FVec F S1x1 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096x8192x1 .f32 := Host.absf main_arg1
  let main_cst_0 : FVec F S_ .f32 := constant S_ .f32 0x7F800000#32
  let main_v5 : FVec F S4096x8192x1 .f32 := broadcastInDim S4096x8192x1 ![] bcast_S_S4096x8192x1 main_cst_0
  let main_v6 : IVec S4096x8192x1 1 := cmpf .olt main_v4 main_v5
  let main_c_1 : IVec S_ 1 := constantI S_ 1 1#1
  let main_v7 : IVec S_ 1 := (fun x v => Host.reduce IntOp.andi x v reducesTo_S4096x8192x1_S_d0_1_2 h_S_) main_v6 main_c_1
  let main_v8 : IVec S_ 1 := andi main_v3 main_v7
  let main_v9 : FVec F S1x1 .f32 := Host.absf main_arg2
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  let main_v14 : FVec F S1x1 .f32 := Host.absf main_arg3
  let main_cst_4 : FVec F S_ .f32 := constant S_ .f32 0x7F800000#32
  let main_v15 : FVec F S1x1 .f32 := broadcastInDim S1x1 ![] bcast_S_S1x1 main_cst_4
  let main_v16 : IVec S1x1 1 := cmpf .olt main_v14 main_v15
  fn_part1 (F := F) main_v13 main_v16
-- ==== Kernel.lean ====
abbrev S4096 : Shape := ⟨1, ![4096]⟩
abbrev S4096x8192x1 : Shape := ⟨3, ![4096, 8192, 1]⟩
abbrev S1x1 : Shape := ⟨2, ![1, 1]⟩
abbrev S4096x1 : Shape := ⟨2, ![4096, 1]⟩
abbrev S4096x8192 : Shape := ⟨2, ![4096, 8192]⟩
abbrev S256x1 : Shape := ⟨2, ![256, 1]⟩
abbrev S256x8192 : Shape := ⟨2, ![256, 8192]⟩
abbrev S256 : Shape := ⟨1, ![256]⟩
abbrev S4096x1x1 : Shape := ⟨3, ![4096, 1, 1]⟩

abbrev nBuf : Space → Nat
  | .hbm => 8
  | .vmem => 8
  | .smem => 0
  | _ => 0

abbrev bufTy : (tb : Table) → Fin (tcTables nBuf tb) → BufTy
  | .hbm, ⟨0, _⟩ => ⟨S4096, .f32⟩
  | .hbm, ⟨1, _⟩ => ⟨S4096x8192x1, .f32⟩
  | .hbm, ⟨2, _⟩ => ⟨S1x1, .f32⟩
  | .hbm, ⟨3, _⟩ => ⟨S1x1, .f32⟩
  | .hbm, ⟨4, _⟩ => ⟨S4096x1, .f32⟩
  | .hbm, ⟨5, _⟩ => ⟨S4096x8192, .f32⟩
  | .hbm, ⟨6, _⟩ => ⟨S4096x1, .f32⟩
  | .hbm, ⟨7, _⟩ => ⟨S4096x1x1, .f32⟩
  | .local _ .vmem, ⟨0, _⟩ => ⟨S256x1, .f32⟩
  | .local _ .vmem, ⟨1, _⟩ => ⟨S256x1, .f32⟩
  | .local _ .vmem, ⟨2, _⟩ => ⟨S256x8192, .f32⟩
  | .local _ .vmem, ⟨3, _⟩ => ⟨S256x8192, .f32⟩
  | .local _ .vmem, ⟨4, _⟩ => ⟨S1x1, .f32⟩
  | .local _ .vmem, ⟨5, _⟩ => ⟨S1x1, .f32⟩
  | .local _ .vmem, ⟨6, _⟩ => ⟨S256x1, .f32⟩
  | .local _ .vmem, ⟨7, _⟩ => ⟨S256x1, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096_S4096x1 : S4096.ShapeCasts S4096x1
  shapeCasts_S4096x8192x1_S4096x8192 : S4096x8192x1.ShapeCasts S4096x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S256x1_S256x8192 : S256x1.Broadcasts S256x8192
  reduces_S256x8192_S256 : S256x8192.Reduces [1] S256
  shapeCasts_S256_S256x1 : S256.ShapeCasts S256x1
  shapeCasts_S4096x1_S4096x1x1 : S4096x1.ShapeCasts S4096x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S4096x1.size a
  hwx0_0 : ∀ i : grid0.Coords, EltTy.bits .f32 = 32 ∨ (Rect.block (s := S4096x1) S256x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .f32 = 32 ∨ (Rect.block (s := S4096x8192) S256x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)

variable [Facts₀]

abbrev win0_0 : Pipeline.Window sig grid0 :=
  Pipeline.Window.ofSpec (Memref.whole main_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096 : Shape := ⟨1, ![4096]⟩
abbrev S4096x8192x1 : Shape := ⟨3, ![4096, 8192, 1]⟩
abbrev S1x1 : Shape := ⟨2, ![1, 1]⟩
abbrev S4096x1x1 : Shape := ⟨3, ![4096, 1, 1]⟩
abbrev S1x1x1 : Shape := ⟨3, ![1, 1, 1]⟩
abbrev S_ : Shape := ⟨0, ![]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096x8192x1, .f32⟩
  | .hbm, ⟨2, _⟩ => ⟨S1x1, .f32⟩
  | .hbm, ⟨3, _⟩ => ⟨S1x1, .f32⟩
  | .hbm, ⟨4, _⟩ => ⟨S4096x1x1, .f32⟩
  | .hbm, ⟨5, _⟩ => ⟨S1x1x1, .f32⟩
  | .hbm, ⟨6, _⟩ => ⟨S4096x1x1, .f32⟩
  | .hbm, ⟨7, _⟩ => ⟨S4096x1x1, .f32⟩
  | .hbm, ⟨8, _⟩ => ⟨S1x1x1, .f32⟩
  | .hbm, ⟨9, _⟩ => ⟨S4096x8192x1, .f32⟩
  | .hbm, ⟨10, _⟩ => ⟨S4096x8192x1, .f32⟩
  | .hbm, ⟨11, _⟩ => ⟨S4096x8192x1, .f32⟩
  | .hbm, ⟨12, _⟩ => ⟨S4096x8192x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x8192x1, .f32⟩
  | .hbm, ⟨17, _⟩ => ⟨S4096x8192x1, .f32⟩
  | .hbm, ⟨18, _⟩ => ⟨S_, .f32⟩
  | .hbm, ⟨19, _⟩ => ⟨S4096x8192x1, .f32⟩
  | .hbm, ⟨20, _⟩ => ⟨S4096x8192x1, .f32⟩
  | .hbm, ⟨21, _⟩ => ⟨S4096x8192x1, .f32⟩
  | .hbm, ⟨22, _⟩ => ⟨S4096x8192x1, .f32⟩
  | .hbm, ⟨23, _⟩ => ⟨S_, .f32⟩
  | .hbm, ⟨24, _⟩ => ⟨S4096x8192x1, .f32⟩
  | .hbm, ⟨25, _⟩ => ⟨S4096x8192x1, .f32⟩
  | .hbm, ⟨26, _⟩ => ⟨S_, .f32⟩
  | .hbm, ⟨27, _⟩ => ⟨S4096x8192x1, .f32⟩
  | .hbm, ⟨28, _⟩ => ⟨S4096x8192x1, .f32⟩
  | .hbm, ⟨29, _⟩ => ⟨S_, .f32⟩
  | .hbm, ⟨30, _⟩ => ⟨S4096x8192x1, .f32⟩
  | .hbm, ⟨31, _⟩ => ⟨S4096x8192x1, .f32⟩
  | .hbm, ⟨32, _⟩ => ⟨S_, .f32⟩
  | .hbm, ⟨33, _⟩ => ⟨S4096x8192x1, .f32⟩
  | .hbm, ⟨34, _⟩ => ⟨S4096x8192x1, .f32⟩
  | .hbm, ⟨35, _⟩ => ⟨S_, .f32⟩
  | .hbm, ⟨36, _⟩ => ⟨S4096x1, .f32⟩
  | .hbm, ⟨37, _⟩ => ⟨S4096x1x1, .f32⟩
  | .hbm, ⟨38, _⟩ => ⟨S_, .f32⟩
  | .hbm, ⟨39, _⟩ => ⟨S4096x1x1, .f32⟩
  | .hbm, ⟨40, _⟩ => ⟨S4096x1x1, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  bcast_S4096_S4096x1x1_0 : S4096.BroadcastsInDim S4096x1x1 (![0] : Fin 1 → Fin S4096x1x1.rank)
  bcast_S1x1_S1x1x1_1_2 : S1x1.BroadcastsInDim S1x1x1 (![1, 2] : Fin 2 → Fin S1x1x1.rank)
  bcast_S1x1x1_S4096x1x1_0_1_2 : S1x1x1.BroadcastsInDim S4096x1x1 (![0, 1, 2] : Fin 3 → Fin S4096x1x1.rank)
  bcast_S1x1x1_S4096x8192x1_0_1_2 : S1x1x1.BroadcastsInDim S4096x8192x1 (![0, 1, 2] : Fin 3 → Fin S4096x8192x1.rank)
  bcast_S4096x1x1_S4096x8192x1_0_1_2 : S4096x1x1.BroadcastsInDim S4096x8192x1 (![0, 1, 2] : Fin 3 → Fin S4096x8192x1.rank)
  bcast_S_S4096x8192x1 : S_.BroadcastsInDim S4096x8192x1 (![] : Fin 0 → Fin S4096x8192x1.rank)
  reducesTo_S4096x8192x1_S4096x1_d1 : S4096x8192x1.ReducesTo [1] S4096x1
  h_S_ : 0 < S_.numel
  bcast_S4096x1_S4096x1x1_0_2 : S4096x1.BroadcastsInDim S4096x1x1 (![0, 2] : Fin 2 → Fin S4096x1x1.rank)
  bcast_S_S4096x1x1 : S_.BroadcastsInDim S4096x1x1 (![] : Fin 0 → Fin S4096x1x1.rank)

variable [Facts₀]

class Facts : Prop extends Facts₀ where

variable [Facts]
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.ScalarLaws.lean ====
/-
  The scalar mathematics behind the two programs.

  Both programs clamp a signal to [-20, 20] and squash it to (-1, 1); one squashes by tanh (s / 2), the other by
  2 · σ(s) - 1 with σ(s) = 1 / (1 + e^{-s}). For a real s these are one number:
      2 / (1 + e^{-s}) - 1 = (1 - e^{-s}) / (1 + e^{-s}) = (e^{s/2} - e^{-s/2}) / (e^{s/2} + e^{-s/2}) = tanh (s / 2).
  On the extended reals the identity is only needed at a clamped value, and a clamped value is always a real
  number (it lies between -20 and 20, whatever was clamped, an infinity included), so no hypothesis on the inputs
  is needed. The mean over 8192 samples is a sum times 2^-13 on one side and a sum divided by 8192 on the other:
  the same product, since 2^-13 is exactly 1 / 8192.
-/
import Idealize.ShloMosaic.PureOps.Ideal
import Idealize.ShloMosaic.PureOps.Ideal.Laws

noncomputable section

namespace Cert.NoiseMean

open Idealize.ShloMosaic

/-! ## The float patterns the programs spell, as the reals they denote -/

theorem lit_neg20 : Ideal.ofBits .f32 0xC1A00000#32 = ((-20 : ℝ) : EReal) := by
  simp [Ideal.ofBits, Ideal.ieee, -EReal.coe_mul]; norm_num

theorem lit_20 : Ideal.ofBits .f32 0x41A00000#32 = ((20 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_one : Ideal.ofBits .f32 0x3F800000#32 = 1 := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_8192 : Ideal.ofBits .f32 0x46000000#32 = ((8192 : ℝ) : EReal) := by
  simp [Ideal.ofBits, Ideal.ieee, -EReal.coe_mul]; norm_num

theorem lit_inv8192 : Ideal.ofBits .f32 0x39000000#32 = ((1 / 8192 : ℝ) : EReal) := by
  simp [Ideal.ofBits, Ideal.ieee, -EReal.coe_mul]; norm_num

/-! ## The clamp and the two squashings -/

/-- The signal clamped to [-20, 20], with the bounds as the programs spell them. -/
def clamp (x : EReal) : EReal :=
  min (Ideal.ofBits .f32 0x41A00000#32) (max (Ideal.ofBits .f32 0xC1A00000#32) x)

/-- The squashing tanh (s / 2). -/
def squashTanh (s : EReal) : EReal := Ideal.tanh (Ideal.ofBits .f32 0x3F000000#32 * s)

/-- The squashing 2 · (1 / (1 + e^{-s})) - 1. -/
def squashLogistic (s : EReal) : EReal :=
  Ideal.ofBits .f32 0x40000000#32
      * Ideal.div (Ideal.ofBits .f32 0x3F800000#32) (Ideal.ofBits .f32 0x3F800000#32 + Ideal.exp (-s))
    - Ideal.ofBits .f32 0x3F800000#32

/-- A clamped value is a real number: it lies between -20 and 20. -/
theorem clamp_real (x : EReal) : ∃ r : ℝ, clamp x = (r : EReal) := by
  unfold clamp
  rw [lit_20, lit_neg20]
  have h1 : min ((20 : ℝ) : EReal) (max ((-20 : ℝ) : EReal) x) ≤ ((20 : ℝ) : EReal) := min_le_left _ _
  have h2 : ((-20 : ℝ) : EReal) ≤ min ((20 : ℝ) : EReal) (max ((-20 : ℝ) : EReal) x) :=
    le_min (by exact_mod_cast (by norm_num : (-20 : ℝ) ≤ 20)) (le_max_left _ _)
  have ht : min ((20 : ℝ) : EReal) (max ((-20 : ℝ) : EReal) x) ≠ ⊤ := ne_top_of_le_ne_top (EReal.coe_ne_top _) h1
  have hb : min ((20 : ℝ) : EReal) (max ((-20 : ℝ) : EReal) x) ≠ ⊥ := ne_bot_of_le_ne_bot (EReal.coe_ne_bot _) h2
  exact ⟨_, (EReal.coe_toReal ht hb).symm⟩

/-- For a real s: 2 / (1 + e^{-s}) - 1 = tanh (s / 2). With a = e^{s/2}, e^{-s} = a⁻¹ · a⁻¹, and both sides are
    (a - a⁻¹) / (a + a⁻¹). -/
theorem two_logistic_sub_one (r : ℝ) : 2 * (1 + Real.exp (-r))⁻¹ - 1 = Real.tanh (1 / 2 * r) := by
  have ha : 0 < Real.exp (1 / 2 * r) := Real.exp_pos _
  have h1 : Real.exp (-(1 / 2 * r)) = (Real.exp (1 / 2 * r))⁻¹ := Real.exp_neg _
  have h2 : Real.exp (-r) = (Real.exp (1 / 2 * r))⁻¹ * (Real.exp (1 / 2 * r))⁻¹ := by
    rw [← h1, ← Real.exp_add]; congr 1; ring
  rw [Real.tanh_eq_sinh_div_cosh, Real.sinh_eq, Real.cosh_eq, h1, h2]
  field_simp
  ring

/-- The two squashings agree at a real number. -/
theorem squash_coe (r : ℝ) : squashLogistic (r : EReal) = squashTanh (r : EReal) := by
  unfold squashLogistic squashTanh
  rw [lit_two, lit_one, lit_half]
  have h : Ideal.div 1 (1 + Ideal.exp (-(r : EReal))) = (((1 + Real.exp (-r))⁻¹ : ℝ) : EReal) :=
    Ideal.logistic_coe r
  rw [h, ← EReal.coe_mul, ← EReal.coe_mul, Ideal.tanh_coe, ← EReal.coe_one, ← EReal.coe_sub, two_logistic_sub_one]

/-- The two squashings agree at every clamped value. -/
theorem squash_clamp (x : EReal) : squashLogistic (clamp x) = squashTanh (clamp x) := by
  obtain ⟨r, hr⟩ := clamp_real x
  rw [hr]
  exact squash_coe r

/-- One sample's contribution: the clamped signal pub · b + priv · c squashed by tanh (s / 2). -/
def sample (pub b priv c : EReal) : EReal := squashTanh (clamp (pub * b + priv * c))

/-- The same contribution squashed by 2 · σ(s) - 1 instead. -/
theorem sample_logistic (pub b priv c : EReal) : squashLogistic (clamp (pub * b + priv * c)) = sample pub b priv c :=
  squash_clamp _

/-- A sum from zero divided by 8192 is the sum times 2^-13, on every extended real. -/
theorem mean_eq (S : EReal) :
    Ideal.div (Ideal.ofBits .f32 0x00000000#32 + S) (Ideal.ofBits .f32 0x46000000#32)
      = S * Ideal.ofBits .f32 0x39000000#32 := by
  rw [Ideal.ofBits_zero_f32, zero_add, lit_8192, lit_inv8192, Ideal.div_coe (by norm_num : (8192 : ℝ) ≠ 0)]

end Cert.NoiseMean

end
-- ==== Proof.KernelRow.lean ====
/-
  One row of the kernel's block, read entry by entry.

  At a grid point the kernel holds 256 rows: a column of public signals (one per row), 8192 private signals per row,
  and two scalar weights b and c. For row p it forms, for every sample k, the signal pub p · b + priv (p, k) · c,
  clamps it to [-20, 20], squashes it by tanh (s / 2), sums the 8192 squashed values along the row and scales the sum
  by 2^-13. So the value stored at (p, 0) is
      (Σ_k tanh (clamp (pub p · b + priv (p, k) · c) / 2)) · 2^-13.
  The column of products pub · b is broadcast along the row, the row sum is taken along the lane axis and re-laid as
  a column; each of these is read at its coordinates.
-/
import proofs.«109331_j60249801228333_2_alg».proof.Proof.Gen.KernelIdeal.Skeleton
import proofs.«109331_j60249801228333_2_alg».proof.Proof.LibKeepdims
import proofs.«109331_j60249801228333_2_alg».proof.Proof.ScalarLaws
import Idealize.ShloMosaic.Lib.ValueIdx
import Idealize.ShloMosaic.Lib.Pipeline.Value

noncomputable section

namespace Cert.NoiseMean

open Idealize.ShloMosaic Idealize.ShloMosaic.ValueIdx Cert.KernelIdeal Cert.KernelIdeal.Gen

/-- The one entry of a 1 × 1 array, extracted at position (0, 0). -/
theorem extract00 (x : Vec Ideal S1x1 .f32) (h : ∀ a, (![0, 0] : Fin 2 → Nat) a < S1x1.size a) :
    extractAt ![0, 0] x h = x (ix2 0 0) :=
  congrArg x (funext fun a => Fin.ext (by match a with | ⟨0, _⟩ => rfl | ⟨1, _⟩ => rfl))

/-- The value the body stores at row p: the row's sum of squashed clamped signals, times 2^-13. -/
theorem payload_apply (x0 : Vec Ideal S256x1 .f32) (x1 : Vec Ideal S256x8192 .f32) (x2 x3 : Vec Ideal S1x1 .f32)
    (p : Fin 256) (u : Fin 1) :
    k0_pay1 (F := Ideal) x0 x1 x2 x3 (ix2 p u)
      = (∑ k : Fin 8192, sample (x0 (ix2 p 0)) (x2 (ix2 0 0)) (x1 (ix2 p k)) (x3 (ix2 0 0)))
          * Ideal.ofBits .f32 0x39000000#32 := by
  unfold k0_pay1
  dsimp only
  -- the product with the splat 2^-13, and the row sum re-laid as a column
  rw [mulf_apply, broadcast_apply, Cert.Keepdims.shapeCast_a_a1_apply]
  -- the lane sum at row p is the sum over the samples k of the entry (p, k)
  refine (congrArg (· * _) (Cert.Keepdims.laneSum_apply _ reduces_S256x8192_S256 _ _ p)).trans ?_
  refine congrArg (· * _) (Finset.sum_congr rfl fun k _ => ?_)
  -- one sample: the pointwise operations at (p, k)
  show Ideal.tanh (Ideal.ofBits .f32 0x3F000000#32 * min (Ideal.ofBits .f32 0x41A00000#32) (max (Ideal.ofBits .f32 0xC1A00000#32)
      (broadcastTo S256x8192 (mulf (shapeCast S256x1 x0 shapeCasts_S256x1_S256x1) (broadcast S256x1 (extractAt ![0, 0] x2 inpos_S1x1_p0_0))) broadcasts_S256x1_S256x8192 (ix2 p k)
        + shapeCast S256x8192 x1 shapeCasts_S256x8192_S256x8192 (ix2 p k) * extractAt ![0, 0] x3 inpos_S1x1_p0_0))) = _
  -- the column pub · b broadcast along the row reads its entry in row p
  rw [Cert.Keepdims.broadcastTo_a1_ab_apply, shapeCast_self, shapeCast_self, mulf_apply, broadcast_apply, extract00, extract00]
  rfl

end Cert.NoiseMean

end
-- ==== Proof.LibUnitAxis.lean ====
/-
  Dropping or adding a trailing axis of extent one, read by coordinates.

  A reshape keeps the row-major order of the entries. An axis of extent one contributes nothing to an entry's
  row-major position, so an `[a, b, 1]` array reshaped to `[a, b]` has at `(p, k)` the entry `(p, k, 0)`, and an
  `[a, 1]` column reshaped to `[a, 1, 1]` has at `(p, 0, 0)` the entry `(p, 0)`. General in the extents.
-/
import Idealize.ShloMosaic.Lib.Pipeline.Value
import Idealize.ShloMosaic.Lib.ValueIdx

namespace Cert.UnitAxis

open Idealize.ShloMosaic Idealize.ShloMosaic.ValueIdx

variable {α : Type}

/-- An `[a, b, 1]` array cast to `[a, b]` reads, at `(p, k)`, the operand at `(p, k, u)` (`u` the one coordinate of
    the unit axis): both have row-major position `p · b + k`. -/
theorem shapeCast_ab1_ab_apply {a b : ℕ} (X : (⟨3, ![a, b, 1]⟩ : Shape).Idx → α)
    (h : (⟨3, ![a, b, 1]⟩ : Shape).ShapeCasts ⟨2, ![a, b]⟩) (p : Fin a) (k : Fin b) (u : Fin 1) :
    shapeCast ⟨2, ![a, b]⟩ X h (ix2 p k) = X (ix3 p k u) :=
  shapeCast_apply X h _ _ (by
    have hu : u.val = 0 := by omega
    rw [Shape.rowMajor_val_three, Shape.rowMajor_val_two]
    show (p.val * b + k.val) * 1 + u.val = p.val * b + k.val
    rw [hu, Nat.mul_one, Nat.add_zero])

/-- An `[a, 1]` column cast to `[a, 1, 1]` reads, at `(p, u, v)`, the operand at `(p, w)` (`u`, `v`, `w` coordinates of
    unit axes): both have row-major position `p`. -/
theorem shapeCast_a1_a11_apply {a : ℕ} (Y : (⟨2, ![a, 1]⟩ : Shape).Idx → α)
    (h : (⟨2, ![a, 1]⟩ : Shape).ShapeCasts ⟨3, ![a, 1, 1]⟩) (p : Fin a) (u v w : Fin 1) :
    shapeCast ⟨3, ![a, 1, 1]⟩ Y h (ix3 p u v) = Y (ix2 p w) :=
  shapeCast_apply Y h _ _ (by
    have hu : u.val = 0 := by omega
    have hv : v.val = 0 := by omega
    have hw : w.val = 0 := by omega
    rw [Shape.rowMajor_val_two, Shape.rowMajor_val_three]
    show p.val * 1 + w.val = (p.val * 1 + u.val) * 1 + v.val
    omega)

end Cert.UnitAxis
-- ==== Proof.Spec.lean ====
/-
  The result, as one function of the four argument arrays.

  For batch row r the result is the mean over the 8192 samples k of the squashed clamped signal
  pub r · b + priv (r, k) · c, written as the sum times 2^-13. It is stated twice: over the arrays as given
  (pub of extent [4096], priv of extents [4096, 8192, 1], the result of extents [4096, 1, 1]) and over the same
  arrays with the unit axes re-laid (pub as a column [4096, 1], priv as [4096, 8192], the result a column [4096, 1]).
  A reshape that only adds or drops axes of extent one keeps every entry's row, so the second form re-laid is the first.
-/
import proofs.«109331_j60249801228333_2_alg».proof.Proof.ScalarLaws
import proofs.«109331_j60249801228333_2_alg».proof.Proof.LibKeepdims
import proofs.«109331_j60249801228333_2_alg».proof.Proof.LibUnitAxis
import Idealize.ShloMosaic.Lib.ValueIdx
import Idealize.ShloMosaic.Lib.Pipeline.Value

noncomputable section

namespace Cert.NoiseMean

open Idealize.ShloMosaic Idealize.ShloMosaic.ValueIdx

/-- The row means over the re-laid arrays: entry (r, 0) is the mean of row r's squashed clamped signals. -/
def rowMean (pub2 : (⟨2, ![4096, 1]⟩ : Shape).Idx → EReal) (priv2 : (⟨2, ![4096, 8192]⟩ : Shape).Idx → EReal)
    (b c : (⟨2, ![1, 1]⟩ : Shape).Idx → EReal) : (⟨2, ![4096, 1]⟩ : Shape).Idx → EReal :=
  fun i => (∑ k : Fin 8192, sample (pub2 (ix2 (i 0) 0)) (b (ix2 0 0)) (priv2 (ix2 (i 0) k)) (c (ix2 0 0)))
    * Ideal.ofBits .f32 0x39000000#32

/-- The result over the arrays as given: entry (r, 0, 0) is the mean of row r's squashed clamped signals. -/
def noiseMean (pub : (⟨1, ![4096]⟩ : Shape).Idx → EReal) (priv : (⟨3, ![4096, 8192, 1]⟩ : Shape).Idx → EReal)
    (b c : (⟨2, ![1, 1]⟩ : Shape).Idx → EReal) : (⟨3, ![4096, 1, 1]⟩ : Shape).Idx → EReal :=
  fun i => (∑ k : Fin 8192, sample (pub (ix1 (i 0))) (b (ix2 0 0)) (priv (ix3 (i 0) k 0)) (c (ix2 0 0)))
    * Ideal.ofBits .f32 0x39000000#32

/-- The row means of the re-laid arguments, re-laid as [4096, 1, 1], are the result over the arguments as given. -/
theorem relaid (pub : (⟨1, ![4096]⟩ : Shape).Idx → EReal) (priv : (⟨3, ![4096, 8192, 1]⟩ : Shape).Idx → EReal)
    (b c : (⟨2, ![1, 1]⟩ : Shape).Idx → EReal)
    (h0 : (⟨1, ![4096]⟩ : Shape).ShapeCasts ⟨2, ![4096, 1]⟩)
    (h1 : (⟨3, ![4096, 8192, 1]⟩ : Shape).ShapeCasts ⟨2, ![4096, 8192]⟩)
    (h2 : (⟨2, ![4096, 1]⟩ : Shape).ShapeCasts ⟨3, ![4096, 1, 1]⟩) :
    shapeCast ⟨3, ![4096, 1, 1]⟩
        (rowMean (shapeCast ⟨2, ![4096, 1]⟩ pub h0) (shapeCast ⟨2, ![4096, 8192]⟩ priv h1) b c) h2
      = noiseMean pub priv b c := by
  funext i
  obtain ⟨r, u, v, rfl⟩ : ∃ (r : Fin 4096) (u v : Fin 1), i = ix3 r u v := ⟨i 0, i 1, i 2, eq_ix3 i⟩
  rw [Cert.UnitAxis.shapeCast_a1_a11_apply _ h2 r u v 0]
  show (∑ k : Fin 8192, sample (shapeCast ⟨2, ![4096, 1]⟩ pub h0 (ix2 r 0)) (b (ix2 0 0))
          (shapeCast ⟨2, ![4096, 8192]⟩ priv h1 (ix2 r k)) (c (ix2 0 0))) * _
      = (∑ k : Fin 8192, sample (pub (ix1 r)) (b (ix2 0 0)) (priv (ix3 r k 0)) (c (ix2 0 0))) * _
  rw [Cert.Keepdims.shapeCast_a_a1_apply]
  refine congrArg (· * _) (Finset.sum_congr rfl fun k _ => ?_)
  rw [Cert.UnitAxis.shapeCast_ab1_ab_apply _ h1 r k 0]

end Cert.NoiseMean

end
-- ==== Proof.KernelArray.lean ====
/-
  From the kernel's blocks to the whole column of row means.

  The grid has 16 points. Point t works on rows t · 256 … t · 256 + 255: its public-signal block and its result block
  are those rows of their columns, its private-signal block is those rows with all 8192 samples, and the two weights
  are the same 1 × 1 arrays at every point. Row q of a block is therefore row t · 256 + q of the arrays, and what point
  t writes back is block t of ONE function of the arrays: the row means. The 16 result blocks tile the 4096 rows (row
  r lies in block r / 256), so after the run the result column holds the row means everywhere.
-/
import proofs.«109331_j60249801228333_2_alg».proof.Proof.Gen.KernelIdeal.Frame
import proofs.«109331_j60249801228333_2_alg».proof.Proof.KernelRow
import proofs.«109331_j60249801228333_2_alg».proof.Proof.Spec
import Idealize.ShloMosaic.Lib.ValueIdx
import Idealize.ShloMosaic.Lib.Pipeline.Value

set_option maxRecDepth 16384
noncomputable section
namespace Cert.NoiseMean
open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-- The zero offsets of a whole-buffer access. -/
theorem hz : (![0, 0] : Fin 2 → Nat) = fun _ => 0 := funext fun a => by fin_cases a <;> rfl

/-- The block indices of the five windows at every grid point: the three row-blocked windows are at block t of their
    first axis, every other block index is 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row q of point t's blocks is row t · 256 + q of the arrays. -/
def gRow (t : Fin cfg0.N) (q : Fin 256) : Fin 4096 :=
  ⟨t.val * 256 + q.val, by have ht : t.val < 16 := lt_of_lt_of_eq t.isLt N_0; have := q.isLt; omega⟩

/-- Where an entry of a block sits in its array, window by window. -/
theorem emb0 (t : Fin cfg0.N) (q : Fin 256) (u : Fin 1) :
    ((cfg0.win 0).blk t).view.emb (ix2 q u) = (ix2 (gRow t q) 0 : S4096x1.Idx) := by
  obtain ⟨e0, e1, -⟩ := idx_facts t
  funext a; apply Fin.ext
  match a with
  | ⟨0, _⟩ => show win0_0.index t (0 : Fin 2) * 256 + 1 * q.val = t.val * 256 + q.val; omega
  | ⟨1, _⟩ => show win0_0.index t (1 : Fin 2) * 1 + 1 * u.val = 0; have := u.isLt; omega

theorem emb1 (t : Fin cfg0.N) (q : Fin 256) (k : Fin 8192) :
    ((cfg0.win 1).blk t).view.emb (ix2 q k) = (ix2 (gRow t q) k : S4096x8192.Idx) := by
  obtain ⟨-, -, e2, e3, -⟩ := idx_facts t
  funext a; apply Fin.ext
  match a with
  | ⟨0, _⟩ => show win0_1.index t (0 : Fin 2) * 256 + 1 * q.val = t.val * 256 + q.val; omega
  | ⟨1, _⟩ => show win0_1.index t (1 : Fin 2) * 8192 + 1 * k.val = k.val; omega

theorem emb2 (t : Fin cfg0.N) (u v : Fin 1) :
    ((cfg0.win 2).blk t).view.emb (ix2 u v) = (ix2 0 0 : S1x1.Idx) := by
  obtain ⟨-, -, -, -, e4, e5, -⟩ := idx_facts t
  funext a; apply Fin.ext
  match a with
  | ⟨0, _⟩ => show win0_2.index t (0 : Fin 2) * 1 + 1 * u.val = 0; have := u.isLt; omega
  | ⟨1, _⟩ => show win0_2.index t (1 : Fin 2) * 1 + 1 * v.val = 0; have := v.isLt; omega

theorem emb3 (t : Fin cfg0.N) (u v : Fin 1) :
    ((cfg0.win 3).blk t).view.emb (ix2 u v) = (ix2 0 0 : S1x1.Idx) := by
  obtain ⟨-, -, -, -, -, -, e6, e7, -⟩ := idx_facts t
  funext a; apply Fin.ext
  match a with
  | ⟨0, _⟩ => show win0_3.index t (0 : Fin 2) * 1 + 1 * u.val = 0; have := u.isLt; omega
  | ⟨1, _⟩ => show win0_3.index t (1 : Fin 2) * 1 + 1 * v.val = 0; have := v.isLt; omega

theorem emb4 (t : Fin cfg0.N) (q : Fin 256) (u : Fin 1) :
    ((cfg0.win 4).blk t).view.emb (ix2 q u) = (ix2 (gRow t q) 0 : S4096x1.Idx) := by
  obtain ⟨-, -, -, -, -, -, -, -, e8, e9⟩ := idx_facts t
  funext a; apply Fin.ext
  match a with
  | ⟨0, _⟩ => show win0_4.index t (0 : Fin 2) * 256 + 1 * q.val = t.val * 256 + q.val; omega
  | ⟨1, _⟩ => show win0_4.index t (1 : Fin 2) * 1 + 1 * u.val = 0; have := u.isLt; omega

/-- The blocks' entries as entries of the arrays the region finds. -/
theorem blk0 (c : Dev nD) (t : Fin cfg0.N) (q : Fin 256) (u : Fin 1) :
    iblk m c 0 t (ix2 q u) = V m c main_v0 (ix2 (gRow t q) 0) := by
  show V m c main_v0 (((cfg0.win 0).blk t).view.emb (ix2 q u)) = _
  rw [emb0]

theorem blk1 (c : Dev nD) (t : Fin cfg0.N) (q : Fin 256) (k : Fin 8192) :
    iblk m c 1 t (ix2 q k) = V m c main_v1 (ix2 (gRow t q) k) := by
  show V m c main_v1 (((cfg0.win 1).blk t).view.emb (ix2 q k)) = _
  rw [emb1]

theorem blk2 (c : Dev nD) (t : Fin cfg0.N) (u v : Fin 1) :
    iblk m c 2 t (ix2 u v) = V m c main_arg2 (ix2 0 0) := by
  show V m c main_arg2 (((cfg0.win 2).blk t).view.emb (ix2 u v)) = _
  rw [emb2]

theorem blk3 (c : Dev nD) (t : Fin cfg0.N) (u v : Fin 1) :
    iblk m c 3 t (ix2 u v) = V m c main_arg3 (ix2 0 0) := by
  show V m c main_arg3 (((cfg0.win 3).blk t).view.emb (ix2 u v)) = _
  rw [emb3]

/-- What point t writes back is block t of the row means of the arrays the region finds. -/
theorem flushed_eq (c : Dev nD) (t : Fin cfg0.N) :
    (dats (F := Ideal) m 0 c).flushed 4 t = ((cfg0.win 4).blk t).view.read (Elt Ideal)
      (rowMean (V m c main_v0) (V m c main_v1) (V m c main_arg2) (V m c main_arg3)) := by
  show (cfg0.win 4).cut (grid0.coords t) ((dats m 0 c).after 4 t) = _
  rw [after0_4]
  unfold out0_4
  rw [View.canon_unit_zero hz]
  simp only [View.ld_unit_zero (S := S256x1) hz, View.ld_unit_zero (S := S256x8192) hz, View.ld_unit_zero (S := S1x1) hz]
  funext j
  obtain ⟨q, u, rfl⟩ : ∃ (q : Fin 256) (u : Fin 1), j = ix2 q u := ⟨j 0, j 1, eq_ix2 j⟩
  show k0_pay1 (iblk m c 0 t) (iblk m c 1 t) (iblk m c 2 t) (iblk m c 3 t) (ix2 q u)
      = rowMean (V m c main_v0) (V m c main_v1) (V m c main_arg2) (V m c main_arg3) (((cfg0.win 4).blk t).view.emb (ix2 q u))
  rw [emb4]
  refine (payload_apply _ _ _ _ q u).trans ?_
  show _ = (∑ k : Fin 8192, sample (V m c main_v0 (ix2 (gRow t q) 0)) (V m c main_arg2 (ix2 0 0))
      (V m c main_v1 (ix2 (gRow t q) k)) (V m c main_arg3 (ix2 0 0))) * _
  rw [blk0, blk2, blk3]
  refine congrArg (· * _) (Finset.sum_congr rfl fun k _ => ?_)
  rw [blk1]

/-- An index of the result column is in point t's block iff each coordinate is in the block's range. -/
theorem mem_blk4 (t : Fin cfg0.N) (i : S4096x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v2).slice (win0_4.rect t)).set ↔ _
  rw [View.set_slice_whole, Rect.mem_set_unit]
  exact Iff.rfl

/-- Every row of the result column is in some point's block: row r in block r / 256. -/
theorem cover (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  let t : Fin cfg0.N := ⟨(i 0).val / 256, by rw [show cfg0.N = 16 from N_0]; omega⟩
  obtain ⟨-, -, -, -, -, -, -, -, e8, e9⟩ := idx_facts t
  have ht : t.val = (i 0).val / 256 := rfl
  refine ⟨t, flush0_4 t, ?_⟩
  rw [mem_blk4]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1 ≤ (i 1).val ∧ (i 1).val < win0_4.index t (1 : Fin 2) * 1 + 1; omega

/-- After the run the result column holds the row means. -/
theorem final (c : Dev nD) : (dats (F := Ideal) m 0 c).arrAt 4 cfg0.N
    = rowMean (V m c main_v0) (V m c main_v1) (V m c main_arg2) (V m c main_arg3) :=
  (dats m 0 c).arrAt_eq_of_cover 4 _ (fun t _ => flushed_eq m c t) cover

end Cert.NoiseMean
end
-- ==== Proof.KernelRun.lean ====
/-
  The kernel's run, read whole.

  Before the region the host re-lays two arguments without moving an entry: the public signals [4096] become the
  column [4096, 1], the private signals [4096, 8192, 1] become [4096, 8192]. The region then leaves the row means of
  these arrays in the result column, and after the region the host re-lays that column as [4096, 1, 1]. Reshapes that
  only add or drop axes of extent one keep every entry's row, so the program's result is the mean, per batch row, of
  the squashed clamped signals of the arguments as given. The four arguments end as they were launched.
-/
import proofs.«109331_j60249801228333_2_alg».proof.Proof.KernelArray
import Idealize.ShloMosaic.Lib.StableHlo.Run

set_option maxRecDepth 16384

noncomputable section

namespace Cert.NoiseMean

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-- The column of public signals the region finds is the first argument re-laid. -/
theorem V_v0 (c : Dev nD) : (V m c main_v0 : S4096x1.Idx → EReal)
    = shapeCast S4096x1 (m ((c : Thread nD τ).loc main_arg0)) shapeCasts_S4096_S4096x1 := by
  show StableHlo.after hostOps0 (fun b => m (c, b)) (Proc.devRef .tc main_v0) = _
  after_results
  rfl

/-- The private signals the region finds are the second argument re-laid. -/
theorem V_v1 (c : Dev nD) : (V m c main_v1 : S4096x8192.Idx → EReal)
    = shapeCast S4096x8192 (m ((c : Thread nD τ).loc main_arg1)) shapeCasts_S4096x8192x1_S4096x8192 := by
  show StableHlo.after hostOps0 (fun b => m (c, b)) (Proc.devRef .tc main_v1) = _
  after_results
  rfl

/-- The program's result is the result column after the region, re-laid. -/
theorem tail_eq (c : Dev nD) : Pipeline.afterTail₀ cfgs (dats (F := Ideal) m) 0 (V0 m) [hostOps1] c main_v3
    = shapeCast S4096x1x1 ((dats (F := Ideal) m 0 c).arrAt 4 cfg0.N) shapeCasts_S4096x1_S4096x1x1 := by
  unfold Pipeline.afterTail₀
  show StableHlo.after hostOps1 _ (Proc.devRef .tc main_v3) = _
  after_results
  exact congrArg (fun X => shapeCast S4096x1x1 X shapeCasts_S4096x1_S4096x1x1)
    (Pipeline.withArrays_arr spec0 launch0.win.arr_inj c (V0 m c) (fun w => (dats m 0 c).arrAt w (cfgs 0).N) 4)

/-- The program's result, as a function of the four arguments as launched. -/
theorem result_eq (c : Dev nD) : Pipeline.afterTail₀ cfgs (dats (F := Ideal) m) 0 (V0 m) [hostOps1] c main_v3
    = noiseMean (m ((c : Thread nD τ).loc main_arg0)) (m ((c : Thread nD τ).loc main_arg1))
        (m ((c : Thread nD τ).loc main_arg2)) (m ((c : Thread nD τ).loc main_arg3)) := by
  rw [tail_eq, final, V_v0, V_v1, V_main_arg2, V_main_arg3]
  exact relaid _ _ _ _ shapeCasts_S4096_S4096x1 shapeCasts_S4096x8192x1_S4096x8192 shapeCasts_S4096x1_S4096x1x1

/-- Every weakly fair execution of the kernel's program terminates with the result at the per-row means of the
    arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v3)
        = noiseMean (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.NoiseMean

end
-- ==== Proof.ReferenceMean.lean ====
/-
  The reference computes the same means.

  The reference forms the same signal pub r · b + priv (r, k, 0) · c, clamps it to [-20, 20] with the same bounds,
  squashes it by 2 · (1 / (1 + e^{-s})) - 1, sums over the sample axis from zero and divides by 8192. Entry by
  entry: each operation is read at its index, the broadcasts of the scalars and of the per-row product collapse to
  the entries they copy, the squashing of a clamped value is tanh (s / 2), and the sum from zero divided by 8192 is the
  sum times 2^-13.
-/
import proofs.«109331_j60249801228333_2_alg».proof.Proof.Gen.ReferenceIdeal.Read
import proofs.«109331_j60249801228333_2_alg».proof.Proof.Spec
import Idealize.ShloMosaic.Lib.ValueIdx

noncomputable section
namespace Cert.NoiseMean
open Idealize.ShloMosaic Idealize.ShloMosaic.ValueIdx
open Cert.ReferenceIdeal Cert.ReferenceIdeal.Read

/-- The reference's last stage, as a function of the four arguments, is the result function. -/
theorem reference_eq (x0 : (⟨S4096, .f32⟩ : BufTy).Contents (Elt Ideal)) (x1 : (⟨S4096x8192x1, .f32⟩ : BufTy).Contents (Elt Ideal))
    (x2 x3 : (⟨S1x1, .f32⟩ : BufTy).Contents (Elt Ideal)) :
    val_main_v23 (F := Ideal) x0 x1 x2 x3 = noiseMean x0 x1 x2 x3 := by
  funext i
  obtain ⟨r, u, v, rfl⟩ : ∃ (r : Fin 4096) (u v : Fin 1), i = ix3 r u v := ⟨i 0, i 1, i 2, eq_ix3 i⟩
  -- the final quotient, the sum over the samples and its zero start
  rw [val_main_v23_apply, val_main_v21_apply, val_main_v20_apply, val_main_v22_apply, val_main_cst_6_apply, val_main_cst_5_apply]
  simp only [Ideal.hostDivf_def, Ideal.ofBits_def]
  refine (mean_eq _).trans ?_
  refine congrArg (· * _) (Finset.sum_congr rfl fun k _ => ?_)
  -- one sample: every operation read at its index
  rw [val_main_v19_apply, val_main_v17_apply, val_main_v18_apply, val_main_v16_apply, val_main_v15_apply, val_main_v14_apply, val_main_v13_apply, val_main_v12_apply, val_main_v11_apply, val_main_v10_apply, val_main_v9_apply, val_main_call0_v4_apply, val_main_call0_v3_apply, val_main_call0_v2_apply, val_main_call0_v1_apply, val_main_call0_v0_apply, val_main_v8_apply, val_main_v7_apply, val_main_v3_apply, val_main_v0_apply, val_main_v2_apply, val_main_v1_apply, val_main_v6_apply, val_main_v5_apply, val_main_v4_apply, val_main_cst_apply, val_main_cst_0_apply, val_main_cst_1_apply, val_main_cst_2_apply, val_main_cst_3_apply, val_main_cst_4_apply]
  simp only [Ideal.hostDivf_def, Ideal.ofBits_def, Ideal.mulf_def, Ideal.addf_def, Ideal.subf_def, Ideal.maximumf_def, Ideal.minimumf_def, Ideal.hostNegf_def, Ideal.negf_def, Ideal.hostUnary_exp_def]
  -- the indices the broadcasts read: sample (r, k, 0) of priv, entry r of pub, the one entry of each weight
  have e1 : idx_main_v20 (idx_main_v21 (ix3 r u v)) k = (ix3 r k 0 : S4096x8192x1.Idx) :=
    funext fun a => Fin.ext (by match a with | ⟨0, _⟩ => rfl | ⟨1, _⟩ => rfl | ⟨2, _⟩ => rfl)
  rw [e1]
  have e0 : idx_main_v0 (idx_main_v7 (ix3 r k 0 : S4096x8192x1.Idx)) = (ix1 r : S4096.Idx) :=
    funext fun a => Fin.ext (by match a with | ⟨0, _⟩ => rfl)
  have e2 : idx_main_v1 (idx_main_v2 (idx_main_v7 (ix3 r k 0 : S4096x8192x1.Idx))) = (ix2 0 0 : S1x1.Idx) :=
    funext fun a => Fin.ext (by match a with | ⟨0, _⟩ => rfl | ⟨1, _⟩ => rfl)
  have e3 : idx_main_v4 (idx_main_v5 (ix3 r k 0 : S4096x8192x1.Idx)) = (ix2 0 0 : S1x1.Idx) :=
    funext fun a => Fin.ext (by match a with | ⟨0, _⟩ => rfl | ⟨1, _⟩ => rfl)
  rw [e0, e2, e3]
  exact sample_logistic _ _ _ _

end Cert.NoiseMean
end
-- ==== Proof.lean ====
/-
  A mean of squashed noisy signals, computed two ways.

  Both programs take 4096 public signals, 4096 × 8192 private signals and two scalar weights b, c, and return for each
  batch row r the mean over the 8192 samples k of a squashing of the clamped signal s = clamp (pub r · b + priv (r, k) · c),
  the clamp being to [-20, 20]. The kernel squashes by tanh (s / 2), sums along the row and multiplies by 2^-13; the
  reference squashes by 2 · (1 / (1 + e^{-s})) - 1, sums and divides by 8192. For a real s the two squashings are the same
  number, a clamped value is always real, and 2^-13 is exactly 1 / 8192, so on the extended reals the two results are
  equal entry by entry — for all inputs, finite or not.

  The modules: ScalarLaws (the literals, the clamp, the identity of the two squashings, the mean), Spec (the result as
  one function of the arguments, in the given and in the re-laid layout), KernelRow (the value the kernel's body stores
  in a row), KernelArray (the 16 blocks tile the result column), KernelRun (the host reshapes around the region and the
  run), ReferenceMean (the reference's stages read at an index), over two small general files on axes of extent one
  (LibKeepdims, LibUnitAxis). The three frames are the generated ones, the reference's being its generated run with
  the result dropped; the kernel's idealization rewrote nothing, so there is nothing to preserve.
-/
import proofs.«109331_j60249801228333_2_alg».proof.Defs
import proofs.«109331_j60249801228333_2_alg».proof.Proof.Gen.Kernel
import proofs.«109331_j60249801228333_2_alg».proof.Proof.Gen.Kernel.Skeleton
import proofs.«109331_j60249801228333_2_alg».proof.Proof.Gen.Kernel.Launch
import proofs.«109331_j60249801228333_2_alg».proof.Proof.Gen.Kernel.Points
import proofs.«109331_j60249801228333_2_alg».proof.Proof.Gen.Kernel.Frame
import proofs.«109331_j60249801228333_2_alg».proof.Proof.Gen.KernelIdeal
import proofs.«109331_j60249801228333_2_alg».proof.Proof.Gen.KernelIdeal.Skeleton
import proofs.«109331_j60249801228333_2_alg».proof.Proof.Gen.KernelIdeal.Launch
import proofs.«109331_j60249801228333_2_alg».proof.Proof.Gen.KernelIdeal.Points
import proofs.«109331_j60249801228333_2_alg».proof.Proof.Gen.KernelIdeal.Frame
import proofs.«109331_j60249801228333_2_alg».proof.Proof.Gen.ReferenceIdeal
import proofs.«109331_j60249801228333_2_alg».proof.Proof.Gen.ReferenceIdeal.Run
import proofs.«109331_j60249801228333_2_alg».proof.Proof.Gen.ReferenceIdeal.Read
import proofs.«109331_j60249801228333_2_alg».proof.Proof.Gen.Pre_finite_inputs
import proofs.«109331_j60249801228333_2_alg».proof.Proof.KernelRun
import proofs.«109331_j60249801228333_2_alg».proof.Proof.ReferenceMean
import Idealize.ShloMosaic.Adequacy
import Idealize.ShloMosaic.Init

noncomputable section

namespace Cert.Proof

open Idealize.ShloMosaic Idealize.SL.Sem

/-- The word-level kernel terminates, faults nowhere and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization of the kernel rewrote nothing. -/
theorem preserves : Cert.preserves_Kernel_KernelIdeal := trivial

/-- From memories that agree on the four arguments both programs end with the per-row means of the squashed clamped
    signals: the kernel by its run, the reference by its run read stage by stage. -/
theorem algebraic : Cert.algebraic_KernelIdeal_ReferenceIdeal := by
  intro m ρ m' ρ' _ hagree
  refine ⟨_, Cert.NoiseMean.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.NoiseMean.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
